-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256 : Shape := ⟨1, ![256]⟩
abbrev S1 : Shape := ⟨1, ![1]⟩
abbrev S128x128 : Shape := ⟨2, ![128, 128]⟩
abbrev S128 : Shape := ⟨1, ![128]⟩
abbrev S1x256 : Shape := ⟨2, ![1, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S1x256 .f32) (main_arg12 : FVec F S1 .f32) (main_v33 : IVec S_ 1) : IVec S_ 1 :=
  let main_v34 : FVec F S1x256 .f32 := Host.absf main_arg11
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg12
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg8 : FVec F S128x128 .f32) (main_arg9 : FVec F S128x128 .f32) (main_arg10 : FVec F S128 .f32) (main_arg11 : FVec F S1x256 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_v33

def fn {F : FTy → Type} [FloatOps F] (main_arg0 : FVec F S50000x128 .f32) (main_arg1 : IVec S800000 32) (main_arg2 : IVec S800000 32) (main_arg3 : IVec S256 32) (main_arg4 : IVec S1 32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S1x256 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_v13 main_v16
-- ==== Kernel.lean ====
abbrev S50000x128 : Shape := ⟨2, ![50000, 128]⟩
abbrev S800000 : Shape := ⟨1, ![800000]⟩
abbrev S256 : Shape := ⟨1, ![256]⟩
abbrev S1 : Shape := ⟨1, ![1]⟩
abbrev S128x128 : Shape := ⟨2, ![128, 128]⟩
abbrev S128 : Shape := ⟨1, ![128]⟩
abbrev S1x256 : Shape := ⟨2, ![1, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩
abbrev S256x1 : Shape := ⟨2, ![256, 1]⟩
abbrev S256x128 : Shape := ⟨2, ![256, 128]⟩
abbrev S1x1 : Shape := ⟨2, ![1, 1]⟩

abbrev nBuf : Space → Nat
  | .hbm => 82
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256, .i32⟩
  | .hbm, ⟨4, _⟩ => ⟨S1, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x256, .f32⟩
  | .hbm, ⟨12, _⟩ => ⟨S1, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S50000x128, .f32⟩
  | .hbm, ⟨44, _⟩ => ⟨S50000x128, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .bf16⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S128x128, .f32⟩
  | .hbm, ⟨60, _⟩ => ⟨S128x128, .f32⟩
  | .hbm, ⟨61, _⟩ => ⟨S50000x128, .f32⟩
  | .hbm, ⟨62, _⟩ => ⟨S_, .i32⟩
  | .hbm, ⟨63, _⟩ => ⟨S256, .i32⟩
  | .hbm, ⟨64, _⟩ => ⟨S256, .i1⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S256, .i32⟩
  | .hbm, ⟨69, _⟩ => ⟨S256x1, .i32⟩
  | .hbm, ⟨70, _⟩ => ⟨S256x128, .f32⟩
  | .hbm, ⟨71, _⟩ => ⟨S_, .i32⟩
  | .hbm, ⟨72, _⟩ => ⟨S1, .i32⟩
  | .hbm, ⟨73, _⟩ => ⟨S1, .i1⟩
  | .hbm, ⟨74, _⟩ => ⟨S_, .i32⟩
  | .hbm, ⟨75, _⟩ => ⟨S1, .i32⟩
  | .hbm, ⟨76, _⟩ => ⟨S1, .i32⟩
  | .hbm, ⟨77, _⟩ => ⟨S1, .i32⟩
  | .hbm, ⟨78, _⟩ => ⟨S1x1, .i32⟩
  | .hbm, ⟨79, _⟩ => ⟨S1x128, .f32⟩
  | .hbm, ⟨80, _⟩ => ⟨S256x1, .f32⟩
  | .hbm, ⟨81, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S256x128, .f32⟩
  | .local _ .vmem, ⟨23, _⟩ => ⟨S1x128, .f32⟩
  | .local _ .vmem, ⟨24, _⟩ => ⟨S256x1, .f32⟩
  | .local _ .vmem, ⟨25, _⟩ => ⟨S1, .f32⟩
  | .local _ .vmem, ⟨26, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S256 : S_.BroadcastsInDim S256 (![] : Fin 0 → Fin S256.rank)
  bcast_S256_S256x1_0 : S256.BroadcastsInDim S256x1 (![0] : Fin 1 → Fin S256x1.rank)
  bcast_S_S1 : S_.BroadcastsInDim S1 (![] : Fin 0 → Fin S1.rank)
  bcast_S1_S1x1_0 : S1.BroadcastsInDim S1x1 (![0] : Fin 1 → Fin S1x1.rank)
  transposes_S1x256_S256x1_1_0 : S1x256.Transposes [1, 0] S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S256x128_S128 : S256x128.Reduces [0] S128
  concatenates_S1x128_S1x128_S1x256_d1 : Shape.Concatenates [S1x128, S1x128] S1x256 1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  inb_S1x1_S1x1_0_0 : ∀ a, (![0, 0] : Fin 2 → Nat) a + S1x1.size a ≤ S1x1.size a
  h_S1x1 : 0 < S1x1.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  gather_S50000x128_S256x1_S256x128_1_0_n_n_0_1_1128_wf : GatherDims.WF S50000x128 S256x1 S256x128 [1] [0] [] [0] [] 1 ![1, 128]
  gather_S50000x128_S1x1_S1x128_1_0_n_n_0_1_1128_wf : GatherDims.WF S50000x128 S1x1 S1x128 [1] [0] [] [0] [] 1 ![1, 128]
  dot_S1x256_S256x1_S1x1_1_0_0_1_n_n_wf : DotDims.WF S1x256 S256x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S256x1.size a
  hwx2_2 : ∀ i : grid2.Coords, EltTy.bits .f32 = 32 ∨ (Rect.block (s := S256x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def gather_S50000x128_S1x1_S1x128_1_0_n_n_0_1_1128 : GatherDims S50000x128 S1x1 S1x128 where
  offsetDims := [1]
  collapsedSliceDims := [0]
  operandBatchingDims := []
  startIndicesBatchingDims := []
  startIndexMap := [0]
  indexVectorDim := 1
  sliceSizes := ![1, 128]
  wf := gather_S50000x128_S1x1_S1x128_1_0_n_n_0_1_1128_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S256 : Shape := ⟨1, ![256]⟩
abbrev S1 : Shape := ⟨1, ![1]⟩
abbrev S128x128 : Shape := ⟨2, ![128, 128]⟩
abbrev S128 : Shape := ⟨1, ![128]⟩
abbrev S1x256 : Shape := ⟨2, ![1, 256]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S256x1 : Shape := ⟨2, ![256, 1]⟩
abbrev S256x128 : Shape := ⟨2, ![256, 128]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256, .i32⟩
  | .hbm, ⟨4, _⟩ => ⟨S1, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x256, .f32⟩
  | .hbm, ⟨12, _⟩ => ⟨S1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S256, .i32⟩
  | .hbm, ⟨87, _⟩ => ⟨S256, .i1⟩
  | .hbm, ⟨88, _⟩ => ⟨S_, .i32⟩
  | .hbm, ⟨89, _⟩ => ⟨S256, .i32⟩
  | .hbm, ⟨90, _⟩ => ⟨S256, .i32⟩
  | .hbm, ⟨91, _⟩ => ⟨S256, .i32⟩
  | .hbm, ⟨92, _⟩ => ⟨S256x1, .i32⟩
  | .hbm, ⟨93, _⟩ => ⟨S256x128, .f32⟩
  | .hbm, ⟨94, _⟩ => ⟨S_, .i32⟩
  | .hbm, ⟨95, _⟩ => ⟨S1, .i32⟩
  | .hbm, ⟨96, _⟩ => ⟨S1, .i1⟩
  | .hbm, ⟨97, _⟩ => ⟨S_, .i32⟩
  | .hbm, ⟨98, _⟩ => ⟨S1, .i32⟩
  | .hbm, ⟨99, _⟩ => ⟨S1, .i32⟩
  | .hbm, ⟨100, _⟩ => ⟨S1, .i32⟩
  | .hbm, ⟨101, _⟩ => ⟨S1x1, .i32⟩
  | .hbm, ⟨102, _⟩ => ⟨S1x128, .f32⟩
  | .hbm, ⟨103, _⟩ => ⟨S_, .f32⟩
  | .hbm, ⟨104, _⟩ => ⟨S128, .f32⟩
  | .hbm, ⟨105, _⟩ => ⟨S1x128, .f32⟩
  | .hbm, ⟨106, _⟩ => ⟨S1x256, .f32⟩
  | .hbm, ⟨107, _⟩ => ⟨S256x1, .f32⟩
  | .hbm, ⟨108, _⟩ => ⟨S1x1, .f32⟩
  | .hbm, ⟨109, _⟩ => ⟨S1x1, .f32⟩
  | .hbm, ⟨110, _⟩ => ⟨S1x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256 : S_.BroadcastsInDim S256 (![] : Fin 0 → Fin S256.rank)
  bcast_S256_S256x1_0 : S256.BroadcastsInDim S256x1 (![0] : Fin 1 → Fin S256x1.rank)
  bcast_S_S1 : S_.BroadcastsInDim S1 (![] : Fin 0 → Fin S1.rank)
  bcast_S1_S1x1_0 : S1.BroadcastsInDim S1x1 (![0] : Fin 1 → Fin S1x1.rank)
  reducesTo_S256x128_S128_d0 : S256x128.ReducesTo [0] S128
  h_S_ : 0 < S_.numel
  concatenates_S1x128_S1x128_S1x256_d1 : Shape.Concatenates [S1x128, S1x128] S1x256 1
  transposes_S1x256_S256x1_1_0 : S1x256.Transposes [1, 0] S256x1
  bcast_S1_S1x1_1 : S1.BroadcastsInDim S1x1 (![1] : Fin 1 → Fin S1x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S256x1_S256x128_1_0_n_n_0_1_1128_wf : GatherDims.WF S50000x128 S256x1 S256x128 [1] [0] [] [0] [] 1 ![1, 128]
  gather_S50000x128_S1x1_S1x128_1_0_n_n_0_1_1128_wf : GatherDims.WF S50000x128 S1x1 S1x128 [1] [0] [] [0] [] 1 ![1, 128]
  dot_S1x256_S256x1_S1x1_1_0_0_1_n_n_wf : DotDims.WF S1x256 S256x1 S1x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def gather_S50000x128_S1x1_S1x128_1_0_n_n_0_1_1128 : GatherDims S50000x128 S1x1 S1x128 where
  offsetDims := [1]
  collapsedSliceDims := [0]
  operandBatchingDims := []
  startIndicesBatchingDims := []
  startIndexMap := [0]
  indexVectorDim := 1
  sliceSizes := ![1, 128]
  wf := gather_S50000x128_S1x1_S1x128_1_0_n_n_0_1_1128_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

class Facts : Prop extends Facts₀ where

variable [Facts]
-- ==== Proof.KernelRun.lean ====
/-
  The idealized kernel's whole run, with its result named.

  @main is three launches of the vector unit among three stretches of host operations.  Every weakly fair
  execution from a memory with zero counters terminates without a fault, and when it does every buffer that
  outlives the launches holds what the fold through @main leaves in it: the host stretches applied in order, each
  launch's arrays replaced by what its write-backs leave.  Here that is read at the result buffer — it ends at the
  fold's value `W6` there — and, as in the frame, at the thirteen arguments, which end as launched.
-/
import proofs.«123010_j90443421319518_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the value the fold
    through @main leaves there and every argument as launched. -/
theorem run_result : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Gen

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«123010_j90443421319518_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibSigmoid.lean ====
/-
  The logistic function spelt with a division, on the extended reals.

  The single-precision word 0x3F800000 denotes the number one, so the quotient of that constant by
  the constant plus the exponential of the negated argument is the logistic function of the argument:
  1 / (1 + exp (-x)).
-/
import Idealize.ShloMosaic.PureOps.Ideal

namespace Cert.GruLib

open Idealize.ShloMosaic

/-- The single-precision word 0x3F800000 denotes the number one. -/
theorem ofBits_one : Ideal.ofBits .f32 0x3F800000#32 = 1 := by
  simp [Ideal.ofBits, Ideal.ieee, -EReal.coe_mul]; norm_num

/-- One over (one plus the exponential of minus x), with the ones given by their words, is the logistic function of x. -/
theorem div_one_add_exp_neg (x : EReal) :
    Ideal.div (Ideal.ofBits .f32 0x3F800000#32) (Ideal.ofBits .f32 0x3F800000#32 + Ideal.exp (-x)) = Ideal.logistic x := by
  rw [ofBits_one]; rfl

end Cert.GruLib
-- ==== Proof.LibSageLayer.lean ====
/-
  One mean-aggregation graph layer, entry by entry, at the ideal values (floats extended reals, every operation exact).

  A layer takes node features x [N, K] and the sum a [N, K] of the features over each node's incoming edges (a gather
  followed by a scatter-add: not opened here).  Row r of the sum is divided by the node's clamped in-degree D r, each
  of the two arrays is multiplied by its own weights [K, C], the two products and the bias b [C] are added and the
  result is clamped at zero.  With the column d [N, 1] of reciprocals d (r, 0) = 1 / D r, one function states it:

    sageRelu x a d ws wn b (r, c) = max (Σ_k x (r, k) · ws (k, c) + Σ_k (a (r, k) · d (r, 0)) · wn (k, c) + b c, 0)

  Both spellings met in programs are this function.  The vector unit multiplies a block of rows of the sum by the
  block's column of reciprocals broadcast over the lanes, multiplies both blocks into zero accumulators on the matrix
  unit (a change of float format is the identity at these values), adds the bias cast to a row and broadcast down the
  rows, and takes the maximum with the splat zero: read at a block-local index (p, q).  The host divides the whole sum
  by the degree vector spread over the lanes; on the extended reals  a / D = a · (1 / D)  as soon as D ≠ 0 (the
  quotient is the product with the inverse, infinite a included), so the host's whole array is the function at the
  column of reciprocals the host itself computes, 1 / D reshaped to a column.  Sums and products appear in the same
  order on all sides: nothing here needs an entry to be finite.
-/
import proofs.«123010_j90443421319518_2_alg».proof.Proof.LibPlainDot
import proofs.«123010_j90443421319518_2_alg».proof.Proof.LibRowBlocks
import proofs.«123010_j90443421319518_2_alg».proof.Proof.LibColumns
import proofs.«123010_j90443421319518_2_alg».proof.Proof.LibHostColumns
import proofs.«123010_j90443421319518_2_alg».proof.Proof.LibRowBroadcast
import proofs.«123010_j90443421319518_2_alg».proof.Proof.LibRows
import proofs.«123010_j90443421319518_2_alg».proof.Proof.LibSigmoid
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx
open scoped BigOperators

variable {N K C : Nat}

/-- The layer: own features times the self weights, plus the neighbour sum rescaled row by row times the neighbour
    weights, plus the bias, clamped at zero. -/
def sageRelu (x a : FVec Ideal ⟨2, ![N, K]⟩ .f32) (d : FVec Ideal ⟨2, ![N, 1]⟩ .f32) (ws wn : FVec Ideal ⟨2, ![K, C]⟩ .f32)
    (b : FVec Ideal ⟨1, ![C]⟩ .f32) : FVec Ideal ⟨2, ![N, C]⟩ .f32 :=
  fun i => max (((∑ k : Fin K, x (ix2 ⟨(i 0).val, idx2_lt0 i⟩ k) * ws (ix2 k ⟨(i 1).val, idx2_lt1 i⟩))
      + ∑ k : Fin K, (a (ix2 ⟨(i 0).val, idx2_lt0 i⟩ k) * d (ix2 ⟨(i 0).val, idx2_lt0 i⟩ 0)) * wn (ix2 k ⟨(i 1).val, idx2_lt1 i⟩))
    + b (ix1 ⟨(i 1).val, idx2_lt1 i⟩)) (Ideal.ofBits .f32 0x00000000#32)

theorem sageRelu_apply (x a : FVec Ideal ⟨2, ![N, K]⟩ .f32) (d : FVec Ideal ⟨2, ![N, 1]⟩ .f32) (ws wn : FVec Ideal ⟨2, ![K, C]⟩ .f32)
    (b : FVec Ideal ⟨1, ![C]⟩ .f32) (r : Fin N) (c : Fin C) :
    sageRelu x a d ws wn b (ix2 r c)
      = max (((∑ k : Fin K, x (ix2 r k) * ws (ix2 k c)) + ∑ k : Fin K, (a (ix2 r k) * d (ix2 r 0)) * wn (ix2 k c)) + b (ix1 c))
          (Ideal.ofBits .f32 0x00000000#32) := rfl

/-! ## The vector unit's spelling, read at a block-local index -/

/-- The layer's body on a block of B rows: both blocks and both weights narrowed to a smaller float format (the
    identity at these values), the sum's block first multiplied by its column of factors broadcast over the lanes; two
    products into zero accumulators, added; the bias cast to a row and broadcast down the rows added; the maximum with
    the splat zero: at (p, q) the clamped sum of the two contractions and the bias. -/
theorem sage_body {B : Nat} {ψ₁ ψ₂ ψ₃ ψ₄ : FTy} (x0 a0 : FVec Ideal ⟨2, ![B, K]⟩ .f32) (d0 : FVec Ideal ⟨2, ![B, 1]⟩ .f32)
    (ws0 wn0 : FVec Ideal ⟨2, ![K, C]⟩ .f32) (b0 : FVec Ideal ⟨1, ![C]⟩ .f32)
    (g₁ : ψ₁.bits < FTy.f32.bits) (g₂ : ψ₂.bits < FTy.f32.bits) (g₃ : ψ₃.bits < FTy.f32.bits) (g₄ : ψ₄.bits < FTy.f32.bits)
    (h2 : (⟨2, ![B, 1]⟩ : Shape).Broadcasts ⟨2, ![B, K]⟩) (h3 : (⟨1, ![C]⟩ : Shape).ShapeCasts ⟨2, ![1, C]⟩)
    (h4 : (⟨2, ![1, C]⟩ : Shape).Broadcasts ⟨2, ![B, C]⟩) (prec prec' : Option ContractPrecision) (p : Fin B) (q : Fin C) :
    maximumf (addf (addf
          (matmul (DotDims.plain B K C) prec (truncf ψ₁ x0 g₁) (truncf ψ₂ ws0 g₂) (constant (F := Ideal) ⟨2, ![B, C]⟩ .f32 0x00000000#32))
          (matmul (DotDims.plain B K C) prec' (truncf ψ₃ (mulf a0 (broadcastTo ⟨2, ![B, K]⟩ d0 h2)) g₃) (truncf ψ₄ wn0 g₄)
            (constant (F := Ideal) ⟨2, ![B, C]⟩ .f32 0x00000000#32)))
        (broadcastTo ⟨2, ![B, C]⟩ (shapeCast ⟨2, ![1, C]⟩ b0 h3) h4))
      (broadcast ⟨2, ![B, C]⟩ (Scalar.ofBits (F := Ideal) .f32 0x00000000#32)) (ix2 p q)
      = max (((∑ k : Fin K, x0 (ix2 p k) * ws0 (ix2 k q)) + ∑ k : Fin K, (a0 (ix2 p k) * d0 (ix2 p 0)) * wn0 (ix2 k q)) + b0 (ix1 q))
          (Ideal.ofBits .f32 0x00000000#32) := by
  rw [maximumf_apply, addf_apply, addf_apply, broadcast_apply, Cert.Lib.PlainDot.matmul_plain_zero_apply,
    Cert.Lib.PlainDot.matmul_plain_zero_apply, Cert.Lib.Rows.broadcastTo_row_apply, Cert.Lib.Rows.shapeCast_vec_row_apply]
  refine congrArg₂ max (congrArg (· + b0 (ix1 q)) (congrArg₂ (· + ·) rfl (Finset.sum_congr rfl fun k _ => ?_))) rfl
  rw [truncf_apply, truncf_apply, mulf_apply, Cert.Columns.broadcastTo_a1_ab_apply d0 h2 p k 0]

/-! ## The host's spelling, as whole arrays -/

/-- On the extended reals a quotient by a nonzero divisor is the product with the quotient of one by it. -/
theorem div_eq_mul_one_div (a D : EReal) (hD : D ≠ 0) : Ideal.div a D = a * Ideal.div 1 D := by
  unfold Ideal.div
  rw [if_neg hD, if_neg hD, one_mul]

/-- The host's layer: the sum divided by the degree vector (made a column, then spread over the lanes), two
    dot_generals, the bias broadcast to a row and then down the rows, the maximum with the broadcast scalar zero — is the
    layer at the column of reciprocals  one / D  reshaped to [N, 1], when no degree is zero. -/
theorem sage_host (x a : FVec Ideal ⟨2, ![N, K]⟩ .f32) (D : FVec Ideal ⟨1, ![N]⟩ .f32) (ws wn : FVec Ideal ⟨2, ![K, C]⟩ .f32)
    (b : FVec Ideal ⟨1, ![C]⟩ .f32) (hD : ∀ r : Fin N, D (ix1 r) ≠ 0)
    (h0 : (⟨1, ![N]⟩ : Shape).BroadcastsInDim ⟨2, ![N, 1]⟩ (![0] : Fin 1 → Fin 2))
    (h1 : (⟨2, ![N, 1]⟩ : Shape).BroadcastsInDim ⟨2, ![N, K]⟩ (![0, 1] : Fin 2 → Fin 2))
    (h2 : (⟨1, ![C]⟩ : Shape).BroadcastsInDim ⟨2, ![1, C]⟩ (![1] : Fin 1 → Fin 2))
    (h3 : (⟨2, ![1, C]⟩ : Shape).BroadcastsInDim ⟨2, ![N, C]⟩ (![0, 1] : Fin 2 → Fin 2))
    (h4 : (⟨0, ![]⟩ : Shape).BroadcastsInDim ⟨2, ![N, C]⟩ (![] : Fin 0 → Fin 2))
    (h5 : (⟨0, ![]⟩ : Shape).BroadcastsInDim ⟨1, ![N]⟩ (![] : Fin 0 → Fin 1))
    (h6 : (⟨1, ![N]⟩ : Shape).ShapeCasts ⟨2, ![N, 1]⟩) (prec prec' : Option ContractPrecision) :
    maximumf (addf (addf (Host.dotGeneral (DotDims.plain N K C) prec x ws)
          (Host.dotGeneral (DotDims.plain N K C) prec'
            (Host.divf a (broadcastInDim ⟨2, ![N, K]⟩ (![0, 1] : Fin 2 → Fin 2) h1 (broadcastInDim ⟨2, ![N, 1]⟩ (![0] : Fin 1 → Fin 2) h0 D))) wn))
        (broadcastInDim ⟨2, ![N, C]⟩ (![0, 1] : Fin 2 → Fin 2) h3 (broadcastInDim ⟨2, ![1, C]⟩ (![1] : Fin 1 → Fin 2) h2 b)))
      (broadcastInDim ⟨2, ![N, C]⟩ (![] : Fin 0 → Fin 2) h4 (constant (F := Ideal) ⟨0, ![]⟩ .f32 0x00000000#32))
      = sageRelu x a (shapeCast ⟨2, ![N, 1]⟩
          (Host.divf (broadcastInDim ⟨1, ![N]⟩ (![] : Fin 0 → Fin 1) h5 (constant (F := Ideal) ⟨0, ![]⟩ .f32 0x3F800000#32)) D) h6) ws wn b := by
  funext i
  obtain ⟨r, c, rfl⟩ : ∃ (r : Fin N) (c : Fin C), i = ix2 r c := ⟨i 0, i 1, eq_ix2 i⟩
  rw [maximumf_apply, addf_apply, addf_apply, Cert.Lib.RowBlocks.dotGeneral_plain_apply, Cert.Lib.RowBlocks.dotGeneral_plain_apply,
    Cert.Lib.RowBroadcast.broadcastInDim_row_apply, Cert.Lib.RowBroadcast.broadcastInDim_scalar_apply _ h4 (ix2 r c) ix0,
    sageRelu_apply]
  refine congrArg₂ max (congrArg₂ (· + ·) (congrArg₂ (· + ·) rfl (Finset.sum_congr rfl fun k _ => ?_)) ?_) rfl
  · refine congrArg (· * wn (ix2 k c)) ?_
    show Ideal.div (a (ix2 r k)) _ = a (ix2 r k) * _
    rw [Cert.Lib.HostColumns.bcast_col_lanes_apply _ h1 r k 0, Cert.Lib.HostColumns.bcast_vec_col_apply D h0 r 0,
      Cert.Columns.shapeCast_a_a1_apply _ h6 r 0]
    show _ = a (ix2 r k) * Ideal.div (broadcastInDim ⟨1, ![N]⟩ (![] : Fin 0 → Fin 1) h5 (constant (F := Ideal) ⟨0, ![]⟩ .f32 0x3F800000#32) (ix1 r)) (D (ix1 r))
    rw [Cert.Lib.RowBroadcast.broadcastInDim_scalar_apply _ h5 (ix1 r) ix0, constant_apply, Cert.GruLib.ofBits_one]
    exact div_eq_mul_one_div _ _ (hD r)
  · exact broadcastInDim_apply (![1] : Fin 1 → Fin 2) h2 b (ix2 0 c) (ix1 c) (fun ax => by
      match ax with
      | ⟨0, _⟩ =>
        show c.val = if C = 1 then 0 else c.val
        by_cases hC : C = 1
        · rw [if_pos hC]; have := c.isLt; omega
        · rw [if_neg hC])

end Cert.Sage

end
-- ==== Proof.Layer0.lean ====
/-
  The first layer's launch: what its result array holds, as one function of the arrays the launch finds.

  The launch walks ten grid points.  Point t fetches rows 5000 t … 5000 t + 4999 of the node features, of the
  neighbour sum and of the column of reciprocal degrees, and the whole of both weight matrices and of the bias;
  its body leaves in the result's block the layer's function of those blocks, and the block is written back to rows
  5000 t … 5000 t + 4999 of the result.  An entry (p, q) of the block depends only on row p of the two row blocks, on
  column q of the weights and on entry q of the bias, and row p of a block is row 5000 t + p of its array: so the
  block is the restriction of ONE function of the whole arrays, the layer `Cert.Sage.sageRelu` of them.  The ten
  blocks tile the 50000 rows (row r lies in block r / 5000), so after the launch the result array is that function.
-/
import proofs.«123010_j90443421319518_2_alg».proof.Proof.Gen.KernelIdeal.Frame
import proofs.«123010_j90443421319518_2_alg».proof.Proof.LibSageLayer

set_option maxRecDepth 16384

noncomputable section

namespace Cert.KernelIdeal.Layer0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value at an entry (p, q) of the block: the clamped sum of the two contractions and the bias. -/
theorem pay_apply (v0 v2 : FVec Ideal S5000x128 .f32) (v4 : FVec Ideal S5000x1 .f32) (v9 v12 : FVec Ideal S128x128 .f32)
    (v18 : FVec Ideal S128 .f32) (p : Fin 5000) (q : Fin 128) :
    k0_pay1 (F := Ideal) v0 v2 v4 v9 v12 v18 (ix2 p q)
      = max (((∑ k : Fin 128, v0 (ix2 p k) * v9 (ix2 k q)) + ∑ k : Fin 128, (v2 (ix2 p k) * v4 (ix2 p 0)) * v12 (ix2 k q)) + v18 (ix1 q))
          (Ideal.ofBits .f32 0x00000000#32) := by
  unfold k0_pay1
  simp only [shapeCast_self]
  exact Cert.Sage.sage_body v0 v2 v4 v9 v12 v18 _ _ _ _ _ _ _ none none p q

/-- The printed index maps over the grid: a row window's block index is the point's number on the row axis and zero
    on the lane axis; a whole-array window's is zero. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem row_lt (t : Fin cfg0.N) (p : Fin 5000) : t.val * 5000 + p.val < 50000 := by
  have ht := t.isLt
  have hN : cfg0.N = 10 := N_0
  have hp := p.isLt
  omega

/-- Row p of the features' block at point t is row 5000 t + p of the array. -/
theorem read0 (c : Dev nD) (t : Fin cfg0.N) (p : Fin 5000) (k : Fin 128) :
    (iblk0 V c 0 t : FVec Ideal S5000x128 .f32) (ix2 p k) = V c main_arg0 (ix2 ⟨t.val * 5000 + p.val, row_lt t p⟩ k) := by
  obtain ⟨e0, e1, -⟩ := idx t
  unfold iblk0
  rw [View.read_apply]
  show V c main_arg0 _ = V c main_arg0 _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Row p of the neighbour sum's block at point t is row 5000 t + p of the array. -/
theorem read1 (c : Dev nD) (t : Fin cfg0.N) (p : Fin 5000) (k : Fin 128) :
    (iblk0 V c 1 t : FVec Ideal S5000x128 .f32) (ix2 p k) = V c main_v20 (ix2 ⟨t.val * 5000 + p.val, row_lt t p⟩ k) := by
  obtain ⟨-, -, e0, e1, -⟩ := idx t
  unfold iblk0
  rw [View.read_apply]
  show V c main_v20 _ = V c main_v20 _
  refine congrArg _ (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- Entry p of the reciprocal degrees' block at point t is entry 5000 t + p of the column. -/
theorem read2 (c : Dev nD) (t : Fin cfg0.N) (p : Fin 5000) :
    (iblk0 V c 2 t : FVec Ideal S5000x1 .f32) (ix2 p 0) = V c main_v8 (ix2 ⟨t.val * 5000 + p.val, row_lt t p⟩ 0) := by
  obtain ⟨-, -, -, -, e0, e1, -⟩ := idx t
  unfold iblk0
  rw [View.read_apply]
  show V c main_v8 _ = V c main_v8 _
  refine congrArg _ (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- The self weights' block is the whole matrix. -/
theorem read3 (c : Dev nD) (t : Fin cfg0.N) (k q : Fin 128) :
    (iblk0 V c 3 t : FVec Ideal S128x128 .f32) (ix2 k q) = V c main_v21 (ix2 k q) := by
  obtain ⟨-, -, -, -, -, -, e0, e1, -⟩ := idx t
  unfold iblk0
  rw [View.read_apply]
  show V c main_v21 _ = V c main_v21 _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The neighbour weights' block is the whole matrix. -/
theorem read4 (c : Dev nD) (t : Fin cfg0.N) (k q : Fin 128) :
    (iblk0 V c 4 t : FVec Ideal S128x128 .f32) (ix2 k q) = V c main_v22 (ix2 k q) := by
  obtain ⟨-, -, -, -, -, -, -, -, e0, e1, -⟩ := idx t
  unfold iblk0
  rw [View.read_apply]
  show V c main_v22 _ = V c main_v22 _
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias's block is the whole vector. -/
theorem read5 (c : Dev nD) (t : Fin cfg0.N) (q : Fin 128) :
    (iblk0 V c 5 t : FVec Ideal S128 .f32) (ix1 q) = V c main_arg7 (ix1 q) := by
  obtain ⟨-, -, -, -, -, -, -, -, -, -, e0, -⟩ := idx t
  unfold iblk0
  rw [View.read_apply]
  show V c main_arg7 _ = V c main_arg7 _
  refine congrArg _ (funext fun a => Fin.ext ?_)
  match a with
  | ⟨0, _⟩ => show win0_5.index t (0 : Fin 1) * 128 + 1 * q.val = q.val; rw [e0]; omega

/-- What the result array ends holding: the layer's function of the arrays the launch finds. -/
abbrev G (c : Dev nD) : Buf (Elt Ideal) ((c : Thread nD τ).loc main_v23) :=
  Cert.Sage.sageRelu (N := 50000) (K := 128) (C := 128) (V c main_arg0) (V c main_v20) (V c main_v8) (V c main_v21) (V c main_v22) (V c main_arg7)

/-- The block's entry (p, q) at point t is the layer's function of the whole arrays at (5000 t + p, q). -/
theorem point_eq (c : Dev nD) (t : Fin cfg0.N) (p : Fin 5000) (q : Fin 128) :
    k0_pay1 (F := Ideal) (iblk0 V c 0 t) (iblk0 V c 1 t) (iblk0 V c 2 t) (iblk0 V c 3 t) (iblk0 V c 4 t) (iblk0 V c 5 t) (ix2 p q)
      = G V c (ix2 ⟨t.val * 5000 + p.val, row_lt t p⟩ q) := by
  refine (pay_apply (iblk0 V c 0 t) (iblk0 V c 1 t) (iblk0 V c 2 t) (iblk0 V c 3 t) (iblk0 V c 4 t) (iblk0 V c 5 t) p q).trans
    (Eq.trans ?_ (Cert.Sage.sageRelu_apply (V c main_arg0) (V c main_v20) (V c main_v8) (V c main_v21) (V c main_v22) (V c main_arg7)
      ⟨t.val * 5000 + p.val, row_lt t p⟩ q).symm)
  refine congrArg₂ max (congrArg₂ (· + ·) (congrArg₂ (· + ·) (Finset.sum_congr rfl fun k _ => ?_) (Finset.sum_congr rfl fun k _ => ?_))
    (read5 V c t q)) rfl
  · exact congrArg₂ (· * ·) (read0 V c t p k) (read3 V c t k q)
  · exact congrArg₂ (· * ·) (congrArg₂ (· * ·) (read1 V c t p k) (read2 V c t p)) (read4 V c t k q)

/-- What point t writes back is block t of that function. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2, View.ld_unit_zero (S := S128x128) hz2,
    View.ld_unit_zero (S := S128) hz1]
  obtain ⟨-, -, -, -, -, -, -, -, -, -, -, e0, e1⟩ := idx t
  funext j
  obtain ⟨p, q, rfl⟩ : ∃ (p : Fin 5000) (q : Fin 128), j = ix2 p q := ⟨j 0, j 1, eq_ix2 j⟩
  rw [View.read_apply]
  have he : ((cfg0.win 6).blk t).view.emb (ix2 p q) = ix2 ⟨t.val * 5000 + p.val, row_lt t p⟩ q := by
    refine funext fun a => Fin.ext ?_
    match a with
    | ⟨0, _⟩ => show win0_6.index t (0 : Fin 2) * 5000 + 1 * p.val = t.val * 5000 + p.val; rw [e0]; omega
    | ⟨1, _⟩ => show win0_6.index t (1 : Fin 2) * 128 + 1 * q.val = q.val; rw [e1]; omega
  rw [he]
  exact point_eq V c t p q

/-- An index of the result array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- The ten blocks cover the array: row r lies in the block of point r / 5000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, e0, e1⟩ := idx t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- After the launch the result array is the layer's function of the arrays the launch found. -/
theorem final (c : Dev nD) : (dat0 V c).arrAt 6 cfg0.N = G V c :=
  (dat0 V c).arrAt_eq_of_cover 6 (G V c) (fun t _ => flushed_eq V c t) cover

end Cert.KernelIdeal.Layer0

end
-- ==== Proof.Layer1.lean ====
/-
  The second layer's launch: what its result array holds, as one function of the arrays the launch finds.

  The launch walks ten grid points.  Point t fetches rows 5000 t … 5000 t + 4999 of the node features, of the
  neighbour sum and of the column of reciprocal degrees, and the whole of both weight matrices and of the bias;
  its body leaves in the result's block the layer's function of those blocks, and the block is written back to rows
  5000 t … 5000 t + 4999 of the result.  An entry (p, q) of the block depends only on row p of the two row blocks, on
  column q of the weights and on entry q of the bias, and row p of a block is row 5000 t + p of its array: so the
  block is the restriction of ONE function of the whole arrays, the layer `Cert.Sage.sageRelu` of them.  The ten
  blocks tile the 50000 rows (row r lies in block r / 5000), so after the launch the result array is that function.
-/
import proofs.«123010_j90443421319518_2_alg».proof.Proof.Gen.KernelIdeal.Frame
import proofs.«123010_j90443421319518_2_alg».proof.Proof.LibSageLayer

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value at an entry (p, q) of the block: the clamped sum of the two contractions and the bias. -/
theorem pay_apply (v0 v2 : FVec Ideal S5000x128 .f32) (v4 : FVec Ideal S5000x1 .f32) (v9 v12 : FVec Ideal S128x128 .f32)
    (v18 : FVec Ideal S128 .f32) (p : Fin 5000) (q : Fin 128) :
    k1_pay1 (F := Ideal) v0 v2 v4 v9 v12 v18 (ix2 p q)
      = max (((∑ k : Fin 128, v0 (ix2 p k) * v9 (ix2 k q)) + ∑ k : Fin 128, (v2 (ix2 p k) * v4 (ix2 p 0)) * v12 (ix2 k q)) + v18 (ix1 q))
          (Ideal.ofBits .f32 0x00000000#32) := by
  unfold k1_pay1
  simp only [shapeCast_self]
  exact Cert.Sage.sage_body v0 v2 v4 v9 v12 v18 _ _ _ _ _ _ _ none none p q

/-- The printed index maps over the grid: a row window's block index is the point's number on the row axis and zero
    on the lane axis; a whole-array window's is zero. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem row_lt (t : Fin cfg1.N) (p : Fin 5000) : t.val * 5000 + p.val < 50000 := by
  have ht := t.isLt
  have hN : cfg1.N = 10 := N_1
  have hp := p.isLt
  omega

/-- Row p of the features' block at point t is row 5000 t + p of the array. -/
theorem read0 (c : Dev nD) (t : Fin cfg1.N) (p : Fin 5000) (k : Fin 128) :
    (iblk1 V c 0 t : FVec Ideal S5000x128 .f32) (ix2 p k) = V c main_v23 (ix2 ⟨t.val * 5000 + p.val, row_lt t p⟩ k) := by
  obtain ⟨e0, e1, -⟩ := idx t
  unfold iblk1
  rw [View.read_apply]
  show V c main_v23 _ = V c main_v23 _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- Row p of the neighbour sum's block at point t is row 5000 t + p of the array. -/
theorem read1 (c : Dev nD) (t : Fin cfg1.N) (p : Fin 5000) (k : Fin 128) :
    (iblk1 V c 1 t : FVec Ideal S5000x128 .f32) (ix2 p k) = V c main_v35 (ix2 ⟨t.val * 5000 + p.val, row_lt t p⟩ k) := by
  obtain ⟨-, -, e0, e1, -⟩ := idx t
  unfold iblk1
  rw [View.read_apply]
  show V c main_v35 _ = V c main_v35 _
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- Entry p of the reciprocal degrees' block at point t is entry 5000 t + p of the column. -/
theorem read2 (c : Dev nD) (t : Fin cfg1.N) (p : Fin 5000) :
    (iblk1 V c 2 t : FVec Ideal S5000x1 .f32) (ix2 p 0) = V c main_v8 (ix2 ⟨t.val * 5000 + p.val, row_lt t p⟩ 0) := by
  obtain ⟨-, -, -, -, e0, e1, -⟩ := idx t
  unfold iblk1
  rw [View.read_apply]
  show V c main_v8 _ = V c main_v8 _
  refine congrArg _ (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 1 + 1 * 0 = 0; rw [e1]

/-- The self weights' block is the whole matrix. -/
theorem read3 (c : Dev nD) (t : Fin cfg1.N) (k q : Fin 128) :
    (iblk1 V c 3 t : FVec Ideal S128x128 .f32) (ix2 k q) = V c main_v36 (ix2 k q) := by
  obtain ⟨-, -, -, -, -, -, e0, e1, -⟩ := idx t
  unfold iblk1
  rw [View.read_apply]
  show V c main_v36 _ = V c main_v36 _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The neighbour weights' block is the whole matrix. -/
theorem read4 (c : Dev nD) (t : Fin cfg1.N) (k q : Fin 128) :
    (iblk1 V c 4 t : FVec Ideal S128x128 .f32) (ix2 k q) = V c main_v37 (ix2 k q) := by
  obtain ⟨-, -, -, -, -, -, -, -, e0, e1, -⟩ := idx t
  unfold iblk1
  rw [View.read_apply]
  show V c main_v37 _ = V c main_v37 _
  refine congrArg _ (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The bias's block is the whole vector. -/
theorem read5 (c : Dev nD) (t : Fin cfg1.N) (q : Fin 128) :
    (iblk1 V c 5 t : FVec Ideal S128 .f32) (ix1 q) = V c main_arg10 (ix1 q) := by
  obtain ⟨-, -, -, -, -, -, -, -, -, -, e0, -⟩ := idx t
  unfold iblk1
  rw [View.read_apply]
  show V c main_arg10 _ = V c main_arg10 _
  refine congrArg _ (funext fun a => Fin.ext ?_)
  match a with
  | ⟨0, _⟩ => show win1_5.index t (0 : Fin 1) * 128 + 1 * q.val = q.val; rw [e0]; omega

/-- What the result array ends holding: the layer's function of the arrays the launch finds. -/
abbrev G (c : Dev nD) : Buf (Elt Ideal) ((c : Thread nD τ).loc main_v38) :=
  Cert.Sage.sageRelu (N := 50000) (K := 128) (C := 128) (V c main_v23) (V c main_v35) (V c main_v8) (V c main_v36) (V c main_v37) (V c main_arg10)

/-- The block's entry (p, q) at point t is the layer's function of the whole arrays at (5000 t + p, q). -/
theorem point_eq (c : Dev nD) (t : Fin cfg1.N) (p : Fin 5000) (q : Fin 128) :
    k1_pay1 (F := Ideal) (iblk1 V c 0 t) (iblk1 V c 1 t) (iblk1 V c 2 t) (iblk1 V c 3 t) (iblk1 V c 4 t) (iblk1 V c 5 t) (ix2 p q)
      = G V c (ix2 ⟨t.val * 5000 + p.val, row_lt t p⟩ q) := by
  refine (pay_apply (iblk1 V c 0 t) (iblk1 V c 1 t) (iblk1 V c 2 t) (iblk1 V c 3 t) (iblk1 V c 4 t) (iblk1 V c 5 t) p q).trans
    (Eq.trans ?_ (Cert.Sage.sageRelu_apply (V c main_v23) (V c main_v35) (V c main_v8) (V c main_v36) (V c main_v37) (V c main_arg10)
      ⟨t.val * 5000 + p.val, row_lt t p⟩ q).symm)
  refine congrArg₂ max (congrArg₂ (· + ·) (congrArg₂ (· + ·) (Finset.sum_congr rfl fun k _ => ?_) (Finset.sum_congr rfl fun k _ => ?_))
    (read5 V c t q)) rfl
  · exact congrArg₂ (· * ·) (read0 V c t p k) (read3 V c t k q)
  · exact congrArg₂ (· * ·) (congrArg₂ (· * ·) (read1 V c t p k) (read2 V c t p)) (read4 V c t k q)

/-- What point t writes back is block t of that function. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2, View.ld_unit_zero (S := S128x128) hz2,
    View.ld_unit_zero (S := S128) hz1]
  obtain ⟨-, -, -, -, -, -, -, -, -, -, -, e0, e1⟩ := idx t
  funext j
  obtain ⟨p, q, rfl⟩ : ∃ (p : Fin 5000) (q : Fin 128), j = ix2 p q := ⟨j 0, j 1, eq_ix2 j⟩
  rw [View.read_apply]
  have he : ((cfg1.win 6).blk t).view.emb (ix2 p q) = ix2 ⟨t.val * 5000 + p.val, row_lt t p⟩ q := by
    refine funext fun a => Fin.ext ?_
    match a with
    | ⟨0, _⟩ => show win1_6.index t (0 : Fin 2) * 5000 + 1 * p.val = t.val * 5000 + p.val; rw [e0]; omega
    | ⟨1, _⟩ => show win1_6.index t (1 : Fin 2) * 128 + 1 * q.val = q.val; rw [e1]; omega
  rw [he]
  exact point_eq V c t p q

/-- An index of the result array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v38).slice (win1_6.rect t)).set ↔ _
  rw [View.set_slice_whole, Rect.mem_set_unit]
  exact Iff.rfl

/-- The ten blocks cover the array: row r lies in the block of point r / 5000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, e0, e1⟩ := idx t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- After the launch the result array is the layer's function of the arrays the launch found. -/
theorem final (c : Dev nD) : (dat1 V c).arrAt 6 cfg1.N = G V c :=
  (dat1 V c).arrAt_eq_of_cover 6 (G V c) (fun t _ => flushed_eq V c t) cover

end Cert.KernelIdeal.Layer1

end
-- ==== Proof.LibHostForms.lean ====
/-
  Two spellings of the vector unit that are the host's own operations, at the ideal values (floats extended reals,
  every operation exact), for any extents.

  A maximum over the rows (axis 0) of an [a, b] array: the vector unit folds max over the rows from its accumulator's
  value, the host's one-operand reduce folds its maximum body over the rows from its initial scalar.  Read at a column
  both are one and the same fold over the rows of that column, so with the same starting word the two vectors [b] are
  equal.

  A matrix product: the matrix unit's product of two operands first narrowed to smaller float formats (the identity
  at these values), into the zero accumulator, is the host's dot_general of the operands: both are the plain sum over
  the contraction index.
-/
import proofs.«123010_j90443421319518_2_alg».proof.Proof.LibRowBlocks
import Idealize.ShloMosaic.Lib.ValueIdx
import Idealize.ShloMosaic.PureOps.Ideal.Laws

noncomputable section

namespace Cert.Lib.HostForms

open Idealize.ShloMosaic Idealize.ShloMosaic.ValueIdx

/-- The vector unit's maximum over the rows of an [a, b] array, from the accumulator word, is the host's reduce with a
    maximum body over axis 0 from the scalar constant of the same word. -/
theorem colMax_eq_hostReduce {a b : Nat} (v : FVec Ideal ⟨2, ![a, b]⟩ .f32) (acc : BitVec FTy.f32.bits)
    (h : (⟨2, ![a, b]⟩ : Shape).Reduces [0] ⟨1, ![b]⟩) (hφ : FKind.Formats .f32) (hacc : acc = FKind.maximumf.neutral .f32 hφ)
    (h' : (⟨2, ![a, b]⟩ : Shape).ReducesTo [0] ⟨1, ![b]⟩) (hu : 0 < (⟨0, ![]⟩ : Shape).numel) :
    multiReduction .maximumf [0] ⟨1, ![b]⟩ v acc h hφ hacc
      = Host.reduce FloatOps.maximumf v (constant (F := Ideal) ⟨0, ![]⟩ .f32 acc) h' hu := by
  funext j
  rw [Ideal.multiReduction_maximumf_single v acc h hφ hacc j, Host.reduce_eq_fold_single FloatOps.maximumf v _ h' h hu j]
  rfl

/-- A product of operands narrowed to smaller float formats, into the zero accumulator, is the host's dot_general of
    the operands. -/
theorem matmul_narrowed_eq_dotGeneral {M K N : Nat} {ψ₁ ψ₂ : FTy} (l : FVec Ideal ⟨2, ![M, K]⟩ .f32) (r : FVec Ideal ⟨2, ![K, N]⟩ .f32)
    (g₁ : ψ₁.bits < FTy.f32.bits) (g₂ : ψ₂.bits < FTy.f32.bits) (prec prec' : Option ContractPrecision) :
    matmul (DotDims.plain M K N) prec (truncf ψ₁ l g₁) (truncf ψ₂ r g₂) (constant (F := Ideal) ⟨2, ![M, N]⟩ .f32 0x00000000#32)
      = Host.dotGeneral (DotDims.plain M K N) prec' l r := by
  funext i
  obtain ⟨p, q, rfl⟩ : ∃ (p : Fin M) (q : Fin N), i = ix2 p q := ⟨i 0, i 1, eq_ix2 i⟩
  exact Cert.Lib.RowBlocks.matmul_rows_eq_dotGeneral prec prec' l r (truncf ψ₁ l g₁) (truncf ψ₂ r g₂) p p q (fun _ => rfl) (fun _ => rfl)

end Cert.Lib.HostForms

end
-- ==== Proof.LibRowForms.lean ====
/-
  A vector laid out as a row in two ways.

  A vector [C] becomes the row [1, C] either by a reshape or by a broadcast onto axis 1: both read, at (0, c),
  the vector at c, so they are the same row.
-/
import proofs.«123010_j90443421319518_2_alg».proof.Proof.LibRows

noncomputable section

namespace Cert.Lib.RowForms

open Idealize.ShloMosaic Idealize.ShloMosaic.ValueIdx

variable {α : Type}

/-- A vector [C] broadcast onto axis 1 of [1, C] is the vector reshaped to [1, C]. -/
theorem broadcastInDim_row_eq_shapeCast {C : Nat} (b : (⟨1, ![C]⟩ : Shape).Idx → α)
    (hb : (⟨1, ![C]⟩ : Shape).BroadcastsInDim ⟨2, ![1, C]⟩ (![1] : Fin 1 → Fin 2))
    (hs : (⟨1, ![C]⟩ : Shape).ShapeCasts ⟨2, ![1, C]⟩) :
    broadcastInDim ⟨2, ![1, C]⟩ (![1] : Fin 1 → Fin 2) hb b = shapeCast ⟨2, ![1, C]⟩ b hs := by
  funext j
  obtain ⟨p, q, rfl⟩ : ∃ (p : Fin 1) (q : Fin C), j = ix2 p q := ⟨j 0, j 1, eq_ix2 j⟩
  obtain rfl : p = 0 := Subsingleton.elim _ _
  rw [Cert.Lib.Rows.shapeCast_vec_row_apply]
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

end Cert.Lib.RowForms

end
-- ==== Proof.Readout.lean ====
/-
  The readout's launch: what its one-entry result holds, and the body's arithmetic as host operations.

  The launch has a single grid point and every window is its whole array: the 256 state rows, the action row, the
  transposed output weights [256, 1] and the output bias.  So the result array ends at the body's stored value of the
  whole arrays.  That value is: the maximum of the state rows down each column, laid as a row, set beside the action
  row; the resulting row [1, 256] times the weights into the zero accumulator; plus the bias as a [1, 1] array.  The
  column maximum is the host's reduce over axis 0 (the same fold from the same word −∞), a vector laid as a row by a
  cast is the vector broadcast onto axis 1, and the product of narrowed operands into zero is the host's dot_general:
  the body's value is the host's readout of the same arrays, operation for operation.
-/
import proofs.«123010_j90443421319518_2_alg».proof.Proof.Gen.KernelIdeal.Frame
import proofs.«123010_j90443421319518_2_alg».proof.Proof.LibHostForms
import proofs.«123010_j90443421319518_2_alg».proof.Proof.LibRowForms

set_option maxRecDepth 16384

noncomputable section

namespace Cert.KernelIdeal.Readout

open Cert.KernelIdeal Cert.KernelIdeal.Gen
open Idealize.ShloMosaic Idealize.ShloMosaic.TcCoe Idealize.SL.Sem Idealize.ShloMosaic.ValueIdx
open Idealize.ShloMosaic.Pipeline (Dat)

/-- The body's stored value as host operations: the column maximum as the host's reduce, the casts to rows as
    broadcasts onto axis 1, the matrix unit's product as the host's dot_general. -/
theorem pay_eq (sv : FVec Ideal S256x128 .f32) (av : FVec Ideal S1x128 .f32) (w : FVec Ideal S256x1 .f32) (b : FVec Ideal S1 .f32)
    (hb1 : S128.BroadcastsInDim S1x128 (![1] : Fin 1 → Fin 2)) (hred : S256x128.ReducesTo [0] S128) (hS : 0 < S_.numel)
    (hcat : Shape.Concatenates [S1x128, S1x128] S1x256 (1 : Fin 2)) (hb2 : S1.BroadcastsInDim S1x1 (![1] : Fin 1 → Fin 2)) :
    k2_pay1 (F := Ideal) sv av w b
      = addf (Host.dotGeneral (DotDims.plain 1 256 1) none
          (concatenate S1x256 1 [⟨S1x128, broadcastInDim S1x128 (![1] : Fin 1 → Fin 2) hb1 (Host.reduce FloatOps.maximumf sv (constant (F := Ideal) S_ .f32 0xFF800000#32) hred hS)⟩, ⟨S1x128, av⟩] hcat) w)
        (broadcastInDim S1x1 (![1] : Fin 1 → Fin 2) hb2 b) := by
  unfold k2_pay1
  simp only [shapeCast_self]
  rw [shapeCast_self sv, shapeCast_self av,
    show dot_S1x256_S256x1_S1x1_1_0_0_1_n_n = DotDims.plain 1 256 1 from rfl,
    Cert.Lib.HostForms.matmul_narrowed_eq_dotGeneral _ _ _ _ none none]
  have e1 : shapeCast S1x128 (multiReduction .maximumf [0] S128 sv 0xFF800000#32 reduces_S256x128_S128 (.inl rfl) rfl) shapeCasts_S128_S1x128
      = broadcastInDim S1x128 (![1] : Fin 1 → Fin 2) hb1 (Host.reduce FloatOps.maximumf sv (constant (F := Ideal) S_ .f32 0xFF800000#32) hred hS) :=
    (congrArg (fun v => shapeCast S1x128 v shapeCasts_S128_S1x128) (Cert.Lib.HostForms.colMax_eq_hostReduce sv _ _ _ _ hred hS)).trans
      (Cert.Lib.RowForms.broadcastInDim_row_eq_shapeCast _ hb1 shapeCasts_S128_S1x128).symm
  have e2 : shapeCast S1x1 b shapeCasts_S1_S1x1 = broadcastInDim S1x1 (![1] : Fin 1 → Fin 2) hb2 b :=
    (Cert.Lib.RowForms.broadcastInDim_row_eq_shapeCast b hb2 shapeCasts_S1_S1x1).symm
  exact congrArg₂ addf (congrArg (fun h => Host.dotGeneral (DotDims.plain 1 256 1) none h w)
    (congrArg (fun v => concatenate S1x256 1 [⟨S1x128, v⟩, ⟨S1x128, av⟩] hcat) e1)) e2

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Every window's block index is zero at the one grid point. -/
structure IdxFacts (t : Fin cfg2.N) : Prop where
  w0 : win2_0.index t (0 : Fin 2) = 0 ∧ win2_0.index t (1 : Fin 2) = 0
  w1 : win2_1.index t (0 : Fin 2) = 0 ∧ win2_1.index t (1 : Fin 2) = 0
  w2 : win2_2.index t (0 : Fin 2) = 0 ∧ win2_2.index t (1 : Fin 2) = 0
  w3 : win2_3.index t (0 : Fin 1) = 0
  w4 : win2_4.index t (0 : Fin 2) = 0 ∧ win2_4.index t (1 : Fin 2) = 0

theorem idx (t : Fin cfg2.N) : IdxFacts t := by
  obtain rfl : t = t2_0 := fin_N2 t
  exact ⟨by decide +kernel, by decide +kernel, by decide +kernel, by decide +kernel, by decide +kernel⟩

/-- The state rows' window holds the whole array. -/
theorem whole0 (c : Dev nD) (t : Fin cfg2.N) : (iblk2 V c 0 t : FVec Ideal S256x128 .f32) = V c main_v45 := by
  funext j
  obtain ⟨p, q, rfl⟩ : ∃ (p : Fin 256) (q : Fin 128), j = ix2 p q := ⟨j 0, j 1, eq_ix2 j⟩
  unfold iblk2
  rw [View.read_apply]
  show V c main_v45 _ = V c main_v45 _
  refine congrArg _ (funext fun a => Fin.ext ?_)
  match a with
  | ⟨0, _⟩ => show win2_0.index t (0 : Fin 2) * 256 + 1 * p.val = p.val; rw [(idx t).w0.1]; omega
  | ⟨1, _⟩ => show win2_0.index t (1 : Fin 2) * 128 + 1 * q.val = q.val; rw [(idx t).w0.2]; omega

/-- The action row's window holds the whole array. -/
theorem whole1 (c : Dev nD) (t : Fin cfg2.N) : (iblk2 V c 1 t : FVec Ideal S1x128 .f32) = V c main_v52 := by
  funext j
  obtain ⟨p, q, rfl⟩ : ∃ (p : Fin 1) (q : Fin 128), j = ix2 p q := ⟨j 0, j 1, eq_ix2 j⟩
  unfold iblk2
  rw [View.read_apply]
  show V c main_v52 _ = V c main_v52 _
  refine congrArg _ (funext fun a => Fin.ext ?_)
  match a with
  | ⟨0, _⟩ => show win2_1.index t (0 : Fin 2) * 1 + 1 * p.val = p.val; rw [(idx t).w1.1]; omega
  | ⟨1, _⟩ => show win2_1.index t (1 : Fin 2) * 128 + 1 * q.val = q.val; rw [(idx t).w1.2]; omega

/-- The weights' window holds the whole array. -/
theorem whole2 (c : Dev nD) (t : Fin cfg2.N) : (iblk2 V c 2 t : FVec Ideal S256x1 .f32) = V c main_v53 := by
  funext j
  obtain ⟨p, q, rfl⟩ : ∃ (p : Fin 256) (q : Fin 1), j = ix2 p q := ⟨j 0, j 1, eq_ix2 j⟩
  unfold iblk2
  rw [View.read_apply]
  show V c main_v53 _ = V c main_v53 _
  refine congrArg _ (funext fun a => Fin.ext ?_)
  match a with
  | ⟨0, _⟩ => show win2_2.index t (0 : Fin 2) * 256 + 1 * p.val = p.val; rw [(idx t).w2.1]; omega
  | ⟨1, _⟩ => show win2_2.index t (1 : Fin 2) * 1 + 1 * q.val = q.val; rw [(idx t).w2.2]; omega

/-- The bias's window holds the whole array. -/
theorem whole3 (c : Dev nD) (t : Fin cfg2.N) : (iblk2 V c 3 t : FVec Ideal S1 .f32) = V c main_arg12 := by
  funext j
  obtain ⟨q, rfl⟩ : ∃ (q : Fin 1), j = ix1 q := ⟨j 0, eq_ix1 j⟩
  unfold iblk2
  rw [View.read_apply]
  show V c main_arg12 _ = V c main_arg12 _
  refine congrArg _ (funext fun a => Fin.ext ?_)
  match a with
  | ⟨0, _⟩ => show win2_3.index t (0 : Fin 1) * 1 + 1 * q.val = q.val; rw [(idx t).w3]; omega

/-- What the result array ends holding: the body's stored value of the whole arrays. -/
abbrev G (c : Dev nD) : Buf (Elt Ideal) ((c : Thread nD τ).loc main_v54) :=
  k2_pay1 (F := Ideal) (V c main_v45) (V c main_v52) (V c main_v53) (V c main_arg12)

/-- What the one point writes back is the whole of that value. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4, whole0 V c t, whole1 V c t, whole2 V c t, whole3 V c t]
  unfold out2_4
  rw [View.canon_unit_zero hz2]
  simp only [View.ld_unit_zero (S := S256x128) hz2, View.ld_unit_zero (S := S1x128) hz2, View.ld_unit_zero (S := S256x1) hz2,
    View.ld_unit_zero (S := S1) hz1]
  funext j
  obtain ⟨p, q, rfl⟩ : ∃ (p : Fin 1) (q : Fin 1), j = ix2 p q := ⟨j 0, j 1, eq_ix2 j⟩
  rw [View.read_apply]
  have he : ((cfg2.win 4).blk t).view.emb (ix2 p q) = ix2 p q := by
    refine funext fun a => Fin.ext ?_
    match a with
    | ⟨0, _⟩ => show win2_4.index t (0 : Fin 2) * 1 + 1 * p.val = p.val; rw [(idx t).w4.1]; omega
    | ⟨1, _⟩ => show win2_4.index t (1 : Fin 2) * 1 + 1 * q.val = q.val; rw [(idx t).w4.2]; omega
  rw [he]
  rfl

/-- An index of the result array is in the point's block iff each coordinate is in the block's range. -/
theorem mem_blk (t : Fin cfg2.N) (i : S1x1.Idx) :
    i ∈ ((cfg2.win 4).blk t).view.set ↔ ∀ a : Fin 2, win2_4.index t a * S1x1.size a ≤ (i a).val
      ∧ (i a).val < win2_4.index t a * S1x1.size a + S1x1.size a := by
  show i ∈ ((View.whole main_v54).slice (win2_4.rect t)).set ↔ _
  rw [View.set_slice_whole, Rect.mem_set_unit]
  exact Iff.rfl

/-- The one block covers the one entry. -/
theorem cover (i : S1x1.Idx) : ∃ t : Fin cfg2.N, (cfg2.win 4).flush t = true ∧ i ∈ ((cfg2.win 4).blk t).view.set := by
  have hi0 : (i 0).val < 1 := (i 0).isLt
  have hi1 : (i 1).val < 1 := (i 1).isLt
  refine ⟨t2_0, flush2_4 t2_0, ?_⟩
  rw [mem_blk]
  intro a
  match a with
  | ⟨0, _⟩ =>
    show win2_4.index t2_0 (0 : Fin 2) * 1 ≤ (i 0).val ∧ (i 0).val < win2_4.index t2_0 (0 : Fin 2) * 1 + 1
    rw [(idx t2_0).w4.1]; omega
  | ⟨1, _⟩ =>
    show win2_4.index t2_0 (1 : Fin 2) * 1 ≤ (i 1).val ∧ (i 1).val < win2_4.index t2_0 (1 : Fin 2) * 1 + 1
    rw [(idx t2_0).w4.2]; omega

/-- After the launch the result array is the body's stored value of the arrays the launch found. -/
theorem final (c : Dev nD) : (dat2 V c).arrAt 4 cfg2.N = G V c :=
  (dat2 V c).arrAt_eq_of_cover 4 (G V c) (fun t _ => flushed_eq V c t) cover

end Cert.KernelIdeal.Readout

end
-- ==== Proof.RefSpec.lean ====
/-
  What the reference computes, as named functions of whole arrays at the ideal values.

  The reference's result is a composition of a few functions, each a short chain of host operations:
    wrapE / wrapS / wrapA   an index vector with negative entries wrapped by the node count, as a column of start indices
    agg h src dst           the neighbour sum: rows of h gathered at the wrapped sources, scatter-added at the destinations
    maxDeg dst              the in-degree (ones scatter-added at the destinations) clamped below at one
    layer x src dst Ws Wn b relu (x Wsᵀ + (agg x / maxDeg) Wnᵀ + b)
    readout h …             the column maximum over the state rows of h beside the action row of h, times Wfcᵀ, plus bfc
  and the whole is  readout (layer (layer x …) …) ….  The gathers, the scatter-adds and the transposes are never opened:
  both programs apply the same ones to the same arrays.
-/
import proofs.«123010_j90443421319518_2_alg».proof.Proof.RefRunP
import Idealize.ShloMosaic.PureOps.Ideal

noncomputable section

namespace Cert.ReferenceIdeal.Spec

open Cert.ReferenceIdeal Cert.ReferenceIdeal.Gen Idealize.ShloMosaic Idealize.ShloMosaic.TcCoe Idealize.SL.Sem Idealize.ShloMosaic.StableHlo

/-- Edge endpoints with negative entries wrapped by the node count, as a column of start indices. -/
def wrapE (src : IVec S800000 32) : IVec S800000x1 32 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- The state indices, wrapped, as a column. -/
def wrapS (st : IVec S256 32) : IVec S256x1 32 :=
  broadcastInDim S256x1 ![0] bcast_S256_S256x1_0 (select (cmpi .slt st (broadcastInDim S256 ![] bcast_S_S256 (constantI S_ 32 0#32))) (addi st (broadcastInDim S256 ![] bcast_S_S256 (constantI S_ 32 50000#32))) st)

/-- The action index, wrapped, as a column. -/
def wrapA (ac : IVec S1 32) : IVec S1x1 32 :=
  broadcastInDim S1x1 ![0] bcast_S1_S1x1_0 (select (cmpi .slt ac (broadcastInDim S1 ![] bcast_S_S1 (constantI S_ 32 0#32))) (addi ac (broadcastInDim S1 ![] bcast_S_S1 (constantI S_ 32 50000#32))) ac)

/-- The neighbour sum of the rows of h over each node's incoming edges. -/
def agg (h : FVec Ideal S50000x128 .f32) (src dst : IVec S800000 32) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (wrapE src))

/-- The in-degree of every node, clamped below at one. -/
def maxDeg (dst : IVec S800000 32) : FVec Ideal S50000 .f32 :=
  maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))

/-- One layer as the reference spells it. -/
def layer (x : FVec Ideal S50000x128 .f32) (src dst : IVec S800000 32) (Ws Wn : FVec Ideal S128x128 .f32) (b : FVec Ideal S128 .f32) :
    FVec Ideal S50000x128 .f32 :=
  maximumf (addf (addf (Host.dotGeneral dot_S50000x128_S128x128_S50000x128_1_0_0_1_n_n none x (transpose S128x128 [1, 0] Ws transposes_S128x128_S128x128_1_0)) (Host.dotGeneral dot_S50000x128_S128x128_S50000x128_1_0_0_1_n_n none (Host.divf (agg x src dst) (broadcastInDim S50000x128 ![0, 1] bcast_S50000x1_S50000x128_0_1 (broadcastInDim S50000x1 ![0] bcast_S50000_S50000x1_0 (maxDeg dst)))) (transpose S128x128 [1, 0] Wn transposes_S128x128_S128x128_1_0))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The readout on given state rows and action row. -/
def readoutOf (sv : FVec Ideal S256x128 .f32) (av : FVec Ideal S1x128 .f32) (Wfc : FVec Ideal S1x256 .f32) (bfc : FVec Ideal S1 .f32) :
    FVec Ideal S1x1 .f32 :=
  addf (Host.dotGeneral dot_S1x256_S256x1_S1x1_1_0_0_1_n_n none (concatenate S1x256 1 [⟨S1x128, (broadcastInDim S1x128 ![1] bcast_S128_S1x128_1 (Host.reduce FloatOps.maximumf sv (constant S_ .f32 0xFF800000#32) reducesTo_S256x128_S128_d0 h_S_))⟩, ⟨S1x128, av⟩] concatenates_S1x128_S1x128_S1x256_d1) (transpose S256x1 [1, 0] Wfc transposes_S1x256_S256x1_1_0)) (broadcastInDim S1x1 ![1] bcast_S1_S1x1_1 bfc)

/-- The readout of the node table h at the states and the action. -/
def readout (h : FVec Ideal S50000x128 .f32) (st : IVec S256 32) (ac : IVec S1 32) (Wfc : FVec Ideal S1x256 .f32) (bfc : FVec Ideal S1 .f32) :
    FVec Ideal S1x1 .f32 :=
  readoutOf (Host.gather gather_S50000x128_S256x1_S256x128_1_0_n_n_0_1_1128 h (wrapS st)) (Host.gather gather_S50000x128_S1x1_S1x128_1_0_n_n_0_1_1128 h (wrapA ac)) Wfc bfc

/-- The reference's result as a function of the thirteen arguments. -/
def out (x : FVec Ideal S50000x128 .f32) (src dst : IVec S800000 32) (st : IVec S256 32) (ac : IVec S1 32)
    (W1s W1n : FVec Ideal S128x128 .f32) (b1 : FVec Ideal S128 .f32) (W2s W2n : FVec Ideal S128x128 .f32) (b2 : FVec Ideal S128 .f32)
    (Wfc : FVec Ideal S1x256 .f32) (bfc : FVec Ideal S1 .f32) : FVec Ideal S1x1 .f32 :=
  readout (layer (layer x src dst W1s W1n b1) src dst W2s W2n b2) st ac Wfc bfc

variable (m : (ℓ : Loc nD τ sig) → Buf (Elt Ideal) ℓ)

/-- The run's composed term is that function of the launch contents of the arguments. -/
theorem res_eq (c : Dev nD) :
    ValueP.res_main_v76 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold ValueP.res_main_v76 out readout readoutOf layer agg maxDeg wrapE wrapS wrapA
  rfl

end Cert.ReferenceIdeal.Spec

end
-- ==== Proof.KernelValue.lean ====
/-
  The idealized kernel's result as a function of its thirteen arguments.

  @main's fold is walked from the launch to the return.  A stretch of host operations is read operation by operation
  (each result is its function of the buffers read; a buffer the stretch does not write keeps its contents); a launch
  replaces its result array by the layer's, respectively the readout's, function of the arrays it finds and leaves
  every other buffer alone.  Along the way:
    before the first launch   the neighbour sum of x, the column of reciprocal clamped degrees, the transposed weights
    after the first launch    h1 = the layer's function of those
    before the second launch  the neighbour sum of h1 (gathered from h1 narrowed to a smaller float format and widened
                              back: the identity at these values), the same column, the second layer's weights
    after the second launch   h2 = the layer's function of those
    before the readout        the state rows and the action row of h2, the transposed output weights
    after the readout         the readout's value of those.
  The host's layer divides the neighbour sum by the clamped degree where the kernel multiplies by its reciprocal; the
  clamped degree is max (degree, 1) ≥ 1, never zero, whatever the degree, so the two agree on every extended real
  (`Cert.Sage.sage_host`) and h1, h2 are the reference's layers.  The readout's value is the reference's readout
  (`Readout.pay_eq`).  So the result is the reference's function `Spec.out` of the arguments.
-/
import proofs.«123010_j90443421319518_2_alg».proof.Proof.KernelRun
import proofs.«123010_j90443421319518_2_alg».proof.Proof.Layer0
import proofs.«123010_j90443421319518_2_alg».proof.Proof.Layer1
import proofs.«123010_j90443421319518_2_alg».proof.Proof.Readout
import proofs.«123010_j90443421319518_2_alg».proof.Proof.RefSpec

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo
open Cert.ReferenceIdeal (Spec.agg Spec.maxDeg Spec.wrapE Spec.wrapS Spec.wrapA Spec.layer Spec.readoutOf Spec.readout Spec.out)

variable (m : (ℓ : Loc nD τ sig) → Buf (Elt Ideal) ℓ) (ρ : Dev nD → PrngReg) (c : Dev nD)

/-! ## The arguments' launch contents -/

abbrev X := m ((c.tc : Thread nD τ).loc main_arg0)
abbrev Src := m ((c.tc : Thread nD τ).loc main_arg1)
abbrev Dst := m ((c.tc : Thread nD τ).loc main_arg2)
abbrev St := m ((c.tc : Thread nD τ).loc main_arg3)
abbrev Ac := m ((c.tc : Thread nD τ).loc main_arg4)
abbrev W1s := m ((c.tc : Thread nD τ).loc main_arg5)
abbrev W1n := m ((c.tc : Thread nD τ).loc main_arg6)
abbrev B1 := m ((c.tc : Thread nD τ).loc main_arg7)
abbrev W2s := m ((c.tc : Thread nD τ).loc main_arg8)
abbrev W2n := m ((c.tc : Thread nD τ).loc main_arg9)
abbrev B2 := m ((c.tc : Thread nD τ).loc main_arg10)
abbrev Wfc := m ((c.tc : Thread nD τ).loc main_arg11)
abbrev Bfc := m ((c.tc : Thread nD τ).loc main_arg12)

/-- The column of reciprocals of the clamped degrees, as the kernel's host code computes it. -/
def invDeg (dst : IVec S800000 32) : FVec Ideal S50000x1 .f32 :=
  shapeCast S50000x1 (Host.divf (broadcastInDim S50000 ![] bcast_S_S50000 (constant (F := Ideal) S_ .f32 0x3F800000#32)) (Spec.maxDeg dst))
    shapeCasts_S50000_S50000x1

/-- The clamped degree is at least one, so it is not zero. -/
theorem maxDeg_ne (dst : IVec S800000 32) (r : Fin 50000) : Spec.maxDeg dst (ix1 r) ≠ 0 := by
  unfold Spec.maxDeg
  rw [maximumf_apply, Cert.Lib.RowBroadcast.broadcastInDim_scalar_apply _ _ (ix1 r) ix0, constant_apply, Cert.GruLib.ofBits_one]
  exact ne_of_gt (lt_of_lt_of_le zero_lt_one (le_max_right _ _))

/-- The reference's layer is the layer's function at the neighbour sum, the column of reciprocal clamped degrees and
    the transposed weights. -/
theorem layer_eq (x : FVec Ideal S50000x128 .f32) (src dst : IVec S800000 32) (Ws Wn : FVec Ideal S128x128 .f32) (b : FVec Ideal S128 .f32) :
    Spec.layer x src dst Ws Wn b
      = Cert.Sage.sageRelu (N := 50000) (K := 128) (C := 128) x (Spec.agg x src dst) (invDeg dst)
          (transpose S128x128 [1, 0] Ws transposes_S128x128_S128x128_1_0) (transpose S128x128 [1, 0] Wn transposes_S128x128_S128x128_1_0) b := by
  unfold Spec.layer invDeg
  exact Cert.Sage.sage_host x (Spec.agg x src dst) (Spec.maxDeg dst) _ _ b (maxDeg_ne dst) _ _ _ _ _ _ _ none none

theorem sageRelu_congr {x x' a a' : FVec Ideal S50000x128 .f32} {d d' : FVec Ideal S50000x1 .f32} {ws ws' wn wn' : FVec Ideal S128x128 .f32}
    {b b' : FVec Ideal S128 .f32} (hx : x = x') (ha : a = a') (hd : d = d') (hws : ws = ws') (hwn : wn = wn') (hb : b = b') :
    Cert.Sage.sageRelu (N := 50000) (K := 128) (C := 128) x a d ws wn b = Cert.Sage.sageRelu x' a' d' ws' wn' b' := by
  subst hx ha hd hws hwn hb; rfl

/-! ## The first stretch of host operations, from the launch contents -/

theorem W1_X : W1 m ρ c (Proc.devRef .tc main_arg0) = X m c := by
  show StableHlo.after hostOps0 (W0 m ρ c) (Proc.devRef .tc main_arg0) = _
  dsimp only [hostOps0]; after_results <;> rfl
theorem W1_Src : W1 m ρ c (Proc.devRef .tc main_arg1) = Src m c := by
  show StableHlo.after hostOps0 (W0 m ρ c) (Proc.devRef .tc main_arg1) = _
  dsimp only [hostOps0]; after_results <;> rfl
theorem W1_Dst : W1 m ρ c (Proc.devRef .tc main_arg2) = Dst m c := by
  show StableHlo.after hostOps0 (W0 m ρ c) (Proc.devRef .tc main_arg2) = _
  dsimp only [hostOps0]; after_results <;> rfl
theorem W1_St : W1 m ρ c (Proc.devRef .tc main_arg3) = St m c := by
  show StableHlo.after hostOps0 (W0 m ρ c) (Proc.devRef .tc main_arg3) = _
  dsimp only [hostOps0]; after_results <;> rfl
theorem W1_Ac : W1 m ρ c (Proc.devRef .tc main_arg4) = Ac m c := by
  show StableHlo.after hostOps0 (W0 m ρ c) (Proc.devRef .tc main_arg4) = _
  dsimp only [hostOps0]; after_results <;> rfl
theorem W1_B1 : W1 m ρ c (Proc.devRef .tc main_arg7) = B1 m c := by
  show StableHlo.after hostOps0 (W0 m ρ c) (Proc.devRef .tc main_arg7) = _
  dsimp only [hostOps0]; after_results <;> rfl
theorem W1_W2s : W1 m ρ c (Proc.devRef .tc main_arg8) = W2s m c := by
  show StableHlo.after hostOps0 (W0 m ρ c) (Proc.devRef .tc main_arg8) = _
  dsimp only [hostOps0]; after_results <;> rfl
theorem W1_W2n : W1 m ρ c (Proc.devRef .tc main_arg9) = W2n m c := by
  show StableHlo.after hostOps0 (W0 m ρ c) (Proc.devRef .tc main_arg9) = _
  dsimp only [hostOps0]; after_results <;> rfl
theorem W1_B2 : W1 m ρ c (Proc.devRef .tc main_arg10) = B2 m c := by
  show StableHlo.after hostOps0 (W0 m ρ c) (Proc.devRef .tc main_arg10) = _
  dsimp only [hostOps0]; after_results <;> rfl
theorem W1_Wfc : W1 m ρ c (Proc.devRef .tc main_arg11) = Wfc m c := by
  show StableHlo.after hostOps0 (W0 m ρ c) (Proc.devRef .tc main_arg11) = _
  dsimp only [hostOps0]; after_results <;> rfl
theorem W1_Bfc : W1 m ρ c (Proc.devRef .tc main_arg12) = Bfc m c := by
  show StableHlo.after hostOps0 (W0 m ρ c) (Proc.devRef .tc main_arg12) = _
  dsimp only [hostOps0]; after_results <;> rfl

/-- The neighbour sum of x. -/
theorem W1_agg : W1 m ρ c (Proc.devRef .tc main_v20) = Spec.agg (X m c) (Src m c) (Dst m c) := by
  show StableHlo.after hostOps0 (W0 m ρ c) (Proc.devRef .tc main_v20) = _
  dsimp only [hostOps0]; after_results
  unfold Spec.agg Spec.wrapE
  rfl

/-- The column of reciprocal clamped degrees. -/
theorem W1_inv : W1 m ρ c (Proc.devRef .tc main_v8) = invDeg (Dst m c) := by
  show StableHlo.after hostOps0 (W0 m ρ c) (Proc.devRef .tc main_v8) = _
  dsimp only [hostOps0]; after_results
  unfold invDeg Spec.maxDeg
  rfl

theorem W1_ws : W1 m ρ c (Proc.devRef .tc main_v21) = transpose S128x128 [1, 0] (W1s m c) transposes_S128x128_S128x128_1_0 := by
  show StableHlo.after hostOps0 (W0 m ρ c) (Proc.devRef .tc main_v21) = _
  dsimp only [hostOps0]; after_results <;> rfl

theorem W1_wn : W1 m ρ c (Proc.devRef .tc main_v22) = transpose S128x128 [1, 0] (W1n m c) transposes_S128x128_S128x128_1_0 := by
  show StableHlo.after hostOps0 (W0 m ρ c) (Proc.devRef .tc main_v22) = _
  dsimp only [hostOps0]; after_results <;> rfl

/-! ## The first launch -/

/-- The first layer's output. -/
def H1 : FVec Ideal S50000x128 .f32 := Spec.layer (X m c) (Src m c) (Dst m c) (W1s m c) (W1n m c) (B1 m c)

theorem W2_H1 : W2 m ρ c (Proc.devRef .tc main_v23) = H1 m c :=
  (W2_arr m ρ c 6).trans ((Layer0.final (V1 m ρ) c).trans
    ((sageRelu_congr (W1_X m ρ c) (W1_agg m ρ c) (W1_inv m ρ c) (W1_ws m ρ c) (W1_wn m ρ c) (W1_B1 m ρ c)).trans
      (layer_eq (X m c) (Src m c) (Dst m c) (W1s m c) (W1n m c) (B1 m c)).symm))

theorem W2_Src : W2 m ρ c (Proc.devRef .tc main_arg1) = Src m c := (W2_of_ne m ρ c main_arg1 (by decide)).trans (W1_Src m ρ c)
theorem W2_Dst : W2 m ρ c (Proc.devRef .tc main_arg2) = Dst m c := (W2_of_ne m ρ c main_arg2 (by decide)).trans (W1_Dst m ρ c)
theorem W2_St : W2 m ρ c (Proc.devRef .tc main_arg3) = St m c := (W2_of_ne m ρ c main_arg3 (by decide)).trans (W1_St m ρ c)
theorem W2_Ac : W2 m ρ c (Proc.devRef .tc main_arg4) = Ac m c := (W2_of_ne m ρ c main_arg4 (by decide)).trans (W1_Ac m ρ c)
theorem W2_W2s : W2 m ρ c (Proc.devRef .tc main_arg8) = W2s m c := (W2_of_ne m ρ c main_arg8 (by decide)).trans (W1_W2s m ρ c)
theorem W2_W2n : W2 m ρ c (Proc.devRef .tc main_arg9) = W2n m c := (W2_of_ne m ρ c main_arg9 (by decide)).trans (W1_W2n m ρ c)
theorem W2_B2 : W2 m ρ c (Proc.devRef .tc main_arg10) = B2 m c := (W2_of_ne m ρ c main_arg10 (by decide)).trans (W1_B2 m ρ c)
theorem W2_Wfc : W2 m ρ c (Proc.devRef .tc main_arg11) = Wfc m c := (W2_of_ne m ρ c main_arg11 (by decide)).trans (W1_Wfc m ρ c)
theorem W2_Bfc : W2 m ρ c (Proc.devRef .tc main_arg12) = Bfc m c := (W2_of_ne m ρ c main_arg12 (by decide)).trans (W1_Bfc m ρ c)
theorem W2_inv : W2 m ρ c (Proc.devRef .tc main_v8) = invDeg (Dst m c) :=
  ((W2_arr m ρ c 2).trans (((dat0 (V1 m ρ) c).arrAt_in 2 rfl _).trans (A_eq0 (V1 m ρ) c 2))).trans (W1_inv m ρ c)

/-! ## The second stretch of host operations -/

theorem W3_H1 : W3 m ρ c (Proc.devRef .tc main_v23) = H1 m c := by
  show StableHlo.after hostOps1 (W2 m ρ c) (Proc.devRef .tc main_v23) = _
  dsimp only [hostOps1]; after_results
  exact W2_H1 m ρ c

theorem W3_inv : W3 m ρ c (Proc.devRef .tc main_v8) = invDeg (Dst m c) := by
  show StableHlo.after hostOps1 (W2 m ρ c) (Proc.devRef .tc main_v8) = _
  dsimp only [hostOps1]; after_results
  exact W2_inv m ρ c

theorem W3_B2 : W3 m ρ c (Proc.devRef .tc main_arg10) = B2 m c := by
  show StableHlo.after hostOps1 (W2 m ρ c) (Proc.devRef .tc main_arg10) = _
  dsimp only [hostOps1]; after_results
  exact W2_B2 m ρ c

theorem W3_St : W3 m ρ c (Proc.devRef .tc main_arg3) = St m c := by
  show StableHlo.after hostOps1 (W2 m ρ c) (Proc.devRef .tc main_arg3) = _
  dsimp only [hostOps1]; after_results
  exact W2_St m ρ c

theorem W3_Ac : W3 m ρ c (Proc.devRef .tc main_arg4) = Ac m c := by
  show StableHlo.after hostOps1 (W2 m ρ c) (Proc.devRef .tc main_arg4) = _
  dsimp only [hostOps1]; after_results
  exact W2_Ac m ρ c

theorem W3_Wfc : W3 m ρ c (Proc.devRef .tc main_arg11) = Wfc m c := by
  show StableHlo.after hostOps1 (W2 m ρ c) (Proc.devRef .tc main_arg11) = _
  dsimp only [hostOps1]; after_results
  exact W2_Wfc m ρ c

theorem W3_Bfc : W3 m ρ c (Proc.devRef .tc main_arg12) = Bfc m c := by
  show StableHlo.after hostOps1 (W2 m ρ c) (Proc.devRef .tc main_arg12) = _
  dsimp only [hostOps1]; after_results
  exact W2_Bfc m ρ c

/-- The neighbour sum of h1: gathered from h1 narrowed and widened back, which at these values is h1. -/
theorem W3_agg : W3 m ρ c (Proc.devRef .tc main_v35) = Spec.agg (H1 m c) (Src m c) (Dst m c) := by
  show StableHlo.after hostOps1 (W2 m ρ c) (Proc.devRef .tc main_v35) = _
  dsimp only [hostOps1]; after_results
  rw [W2_H1 m ρ c, W2_Src m ρ c, W2_Dst m ρ c]
  unfold Spec.agg Spec.wrapE
  rfl

theorem W3_ws : W3 m ρ c (Proc.devRef .tc main_v36) = transpose S128x128 [1, 0] (W2s m c) transposes_S128x128_S128x128_1_0 := by
  show StableHlo.after hostOps1 (W2 m ρ c) (Proc.devRef .tc main_v36) = _
  dsimp only [hostOps1]; after_results
  rw [W2_W2s m ρ c]

theorem W3_wn : W3 m ρ c (Proc.devRef .tc main_v37) = transpose S128x128 [1, 0] (W2n m c) transposes_S128x128_S128x128_1_0 := by
  show StableHlo.after hostOps1 (W2 m ρ c) (Proc.devRef .tc main_v37) = _
  dsimp only [hostOps1]; after_results
  rw [W2_W2n m ρ c]

/-! ## The second launch -/

/-- The second layer's output. -/
def H2 : FVec Ideal S50000x128 .f32 := Spec.layer (H1 m c) (Src m c) (Dst m c) (W2s m c) (W2n m c) (B2 m c)

theorem W4_H2 : W4 m ρ c (Proc.devRef .tc main_v38) = H2 m c :=
  (W4_arr m ρ c 6).trans ((Layer1.final (V3 m ρ) c).trans
    ((sageRelu_congr (W3_H1 m ρ c) (W3_agg m ρ c) (W3_inv m ρ c) (W3_ws m ρ c) (W3_wn m ρ c) (W3_B2 m ρ c)).trans
      (layer_eq (H1 m c) (Src m c) (Dst m c) (W2s m c) (W2n m c) (B2 m c)).symm))

theorem W4_St : W4 m ρ c (Proc.devRef .tc main_arg3) = St m c := (W4_of_ne m ρ c main_arg3 (by decide)).trans (W3_St m ρ c)
theorem W4_Ac : W4 m ρ c (Proc.devRef .tc main_arg4) = Ac m c := (W4_of_ne m ρ c main_arg4 (by decide)).trans (W3_Ac m ρ c)
theorem W4_Wfc : W4 m ρ c (Proc.devRef .tc main_arg11) = Wfc m c := (W4_of_ne m ρ c main_arg11 (by decide)).trans (W3_Wfc m ρ c)
theorem W4_Bfc : W4 m ρ c (Proc.devRef .tc main_arg12) = Bfc m c := (W4_of_ne m ρ c main_arg12 (by decide)).trans (W3_Bfc m ρ c)

/-! ## The third stretch of host operations -/

theorem W5_sv : W5 m ρ c (Proc.devRef .tc main_v45)
    = Host.gather gather_S50000x128_S256x1_S256x128_1_0_n_n_0_1_1128 (H2 m c) (Spec.wrapS (St m c)) := by
  show StableHlo.after hostOps2 (W4 m ρ c) (Proc.devRef .tc main_v45) = _
  dsimp only [hostOps2]; after_results
  rw [W4_H2 m ρ c, W4_St m ρ c]
  unfold Spec.wrapS
  rfl

theorem W5_av : W5 m ρ c (Proc.devRef .tc main_v52)
    = Host.gather gather_S50000x128_S1x1_S1x128_1_0_n_n_0_1_1128 (H2 m c) (Spec.wrapA (Ac m c)) := by
  show StableHlo.after hostOps2 (W4 m ρ c) (Proc.devRef .tc main_v52) = _
  dsimp only [hostOps2]; after_results
  rw [W4_H2 m ρ c, W4_Ac m ρ c]
  unfold Spec.wrapA
  rfl

theorem W5_wfc : W5 m ρ c (Proc.devRef .tc main_v53) = transpose S256x1 [1, 0] (Wfc m c) transposes_S1x256_S256x1_1_0 := by
  show StableHlo.after hostOps2 (W4 m ρ c) (Proc.devRef .tc main_v53) = _
  dsimp only [hostOps2]; after_results
  rw [W4_Wfc m ρ c]

theorem W5_Bfc : W5 m ρ c (Proc.devRef .tc main_arg12) = Bfc m c := by
  show StableHlo.after hostOps2 (W4 m ρ c) (Proc.devRef .tc main_arg12) = _
  dsimp only [hostOps2]; after_results
  exact W4_Bfc m ρ c

/-! ## The readout's launch, and the whole -/

theorem k2_congr {sv sv' : FVec Ideal S256x128 .f32} {av av' : FVec Ideal S1x128 .f32} {w w' : FVec Ideal S256x1 .f32} {b b' : FVec Ideal S1 .f32}
    (h0 : sv = sv') (h1 : av = av') (h2 : w = w') (h3 : b = b') :
    k2_pay1 (F := Ideal) sv av w b = k2_pay1 (F := Ideal) sv' av' w' b' := by
  subst h0 h1 h2 h3; rfl

/-- THE RESULT: the reference's function of the thirteen arguments. -/
theorem result_eq : W6 m ρ c (Proc.devRef .tc main_v54)
    = Spec.out (X m c) (Src m c) (Dst m c) (St m c) (Ac m c) (W1s m c) (W1n m c) (B1 m c) (W2s m c) (W2n m c) (B2 m c) (Wfc m c) (Bfc m c) := by
  refine (W6_arr m ρ c 4).trans ((Readout.final (V5 m ρ) c).trans
    ((k2_congr (W5_sv m ρ c) (W5_av m ρ c) (W5_wfc m ρ c) (W5_Bfc m ρ c)).trans ?_))
  unfold Spec.out Spec.readout Spec.readoutOf
  exact Readout.pay_eq _ _ _ _ _ _ _ _ _

end Cert.KernelIdeal.Whole

end
-- ==== Proof.lean ====
/-
  A two-layer mean-aggregation graph network with a max-pool readout: the kernel program against its jnp reference.

  Both programs take node features x [50000, 128], 800000 edges (source and destination node of each), 256 state
  nodes, one action node, two layers' self and neighbour weights and biases, and output weights [1, 256] and bias.
  A layer is  relu (x Wsᵀ + mean-of-incoming-neighbours (x) Wnᵀ + b): the rows of x are gathered at the edge sources
  and summed into the destinations, the sum is divided by the in-degree clamped below at one, and the two products
  and the bias are added and clamped at zero.  After two layers the rows at the state nodes are reduced by a
  column-wise maximum, the row at the action node is set beside that maximum, and the resulting row of 256 entries is
  multiplied by the output weights and the output bias is added: one number.

  The kernel program keeps the gathers, the scatter-adds and the transposes on the host and computes each layer's
  dense part, and the readout, on the vector unit: a layer in ten blocks of 5000 rows, the readout in one block.  It
  multiplies the neighbour sum by the RECIPROCAL of the clamped degree where the reference divides by the clamped
  degree, and it narrows the matrix products' operands and the gathered table to a smaller float format.  At the ideal
  values (floats extended reals, every operation exact) narrowing is the identity, and  a · (1 / d) = a / d  for every
  extended real a as soon as d ≠ 0; the clamped degree is max (degree, 1) ≥ 1.  So no finiteness of the inputs is
  used.  The blocks' results are the restrictions of one function of the whole arrays (Layer0, Layer1, Readout), the
  fold through the kernel's @main is walked in KernelValue, and the reference's result is the same function
  (RefSpec): the two results are equal.  The three frames are the generated ones (the reference's: its run with the
  result dropped); the idealization rewrote nothing, so what it preserves is trivial.
-/
import proofs.«123010_j90443421319518_2_alg».proof.Defs
import proofs.«123010_j90443421319518_2_alg».proof.Proof.Gen.Kernel
import proofs.«123010_j90443421319518_2_alg».proof.Proof.Gen.Kernel.Frame
import proofs.«123010_j90443421319518_2_alg».proof.Proof.Gen.KernelIdeal
import proofs.«123010_j90443421319518_2_alg».proof.Proof.Gen.KernelIdeal.Frame
import proofs.«123010_j90443421319518_2_alg».proof.Proof.Gen.ReferenceIdeal
import proofs.«123010_j90443421319518_2_alg».proof.Proof.Gen.Pre_finite_inputs
import proofs.«123010_j90443421319518_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

open Cert.ReferenceIdeal in
/-- The reference's function at equal arguments. -/
theorem out_congr {x x' : FVec Ideal S50000x128 .f32} {src src' dst dst' : IVec S800000 32} {st st' : IVec S256 32} {ac ac' : IVec S1 32}
    {w1s w1s' w1n w1n' : FVec Ideal S128x128 .f32} {b1 b1' : FVec Ideal S128 .f32} {w2s w2s' w2n w2n' : FVec Ideal S128x128 .f32}
    {b2 b2' : FVec Ideal S128 .f32} {wfc wfc' : FVec Ideal S1x256 .f32} {bfc bfc' : FVec Ideal S1 .f32}
    (h0 : x = x') (h1 : src = src') (h2 : dst = dst') (h3 : st = st') (h4 : ac = ac') (h5 : w1s = w1s') (h6 : w1n = w1n') (h7 : b1 = b1')
    (h8 : w2s = w2s') (h9 : w2n = w2n') (h10 : b2 = b2') (h11 : wfc = wfc') (h12 : bfc = bfc') :
    Spec.out x src dst st ac w1s w1n b1 w2s w2n b2 wfc bfc = Spec.out x' src' dst' st' ac' w1s' w1n' b1' w2s' w2n' b2' wfc' bfc' := by
  subst h0 h1 h2 h3 h4 h5 h6 h7 h8 h9 h10 h11 h12; rfl

/-- From memories agreeing on the arguments both idealized programs run and end with the same result: the kernel's
    is the reference's function of the arguments (KernelValue), and so is the reference's (RefSpec). -/
theorem algebraic : Cert.algebraic_KernelIdeal_ReferenceIdeal := by
  intro m ρ m' ρ' _ hagree
  refine ⟨fun c => Cert.KernelIdeal.Gen.W6 m ρ c (Proc.devRef .tc Cert.KernelIdeal.main_v54), Cert.KernelIdeal.Gen.run_result m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.Spec.res_eq m' c).trans ?_
  refine (out_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2).trans ?_
  exact (Cert.KernelIdeal.Whole.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
